-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v20)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v20) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v28) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S256x64x64x64 : Shape := ⟨4, ![256, 64, 64, 64]⟩
abbrev S_ : Shape := ⟨0, ![]⟩

class Facts : Prop where
  bcast_S_S256x64x64x64 : S_.BroadcastsInDim S256x64x64x64 (![] : Fin 0 → Fin S256x64x64x64.rank)
  reducesTo_S256x64x64x64_S_d0_1_2_3 : S256x64x64x64.ReducesTo [0, 1, 2, 3] S_
  h_S_ : 0 < S_.numel

variable [Facts]

def fn {F : FTy → Type} [FloatOps F] (main_arg0 : FVec F S256x64x64x64 .f32) (main_arg1 : FVec F S256x64x64x64 .f32) : IVec S_ 1 :=
  let main_v0 : FVec F S256x64x64x64 .f32 := Host.absf main_arg0
  let main_cst : FVec F S_ .f32 := constant S_ .f32 0x7F800000#32
  let main_v1 : FVec F S256x64x64x64 .f32 := broadcastInDim S256x64x64x64 ![] bcast_S_S256x64x64x64 main_cst
  let main_v2 : IVec S256x64x64x64 1 := cmpf .olt main_v0 main_v1
  let main_c : IVec S_ 1 := constantI S_ 1 1#1
  let main_v3 : IVec S_ 1 := (fun x v => Host.reduce IntOp.andi x v reducesTo_S256x64x64x64_S_d0_1_2_3 h_S_) main_v2 main_c
  let main_v4 : FVec F S256x64x64x64 .f32 := Host.absf main_arg1
  let main_cst_0 : FVec F S_ .f32 := constant S_ .f32 0x7F800000#32
  let main_v5 : FVec F S256x64x64x64 .f32 := broadcastInDim S256x64x64x64 ![] bcast_S_S256x64x64x64 main_cst_0
  let main_v6 : IVec S256x64x64x64 1 := cmpf .olt main_v4 main_v5
  let main_c_1 : IVec S_ 1 := constantI S_ 1 1#1
  let main_v7 : IVec S_ 1 := (fun x v => Host.reduce IntOp.andi x v reducesTo_S256x64x64x64_S_d0_1_2_3 h_S_) main_v6 main_c_1
  let main_v8 : IVec S_ 1 := andi main_v3 main_v7
  main_v8
-- ==== Kernel.lean ====
abbrev S256x64x64x64 : Shape := ⟨4, ![256, 64, 64, 64]⟩
abbrev S256x262144 : Shape := ⟨2, ![256, 262144]⟩
abbrev S256x256 : Shape := ⟨2, ![256, 256]⟩
abbrev S256x8192 : Shape := ⟨2, ![256, 8192]⟩
abbrev S_ : Shape := ⟨0, ![]⟩

abbrev nBuf : Space → Nat
  | .hbm => 34
  | .vmem => 6
  | .smem => 0
  | _ => 0

abbrev bufTy : (tb : Table) → Fin (tcTables nBuf tb) → BufTy
  | .hbm, ⟨0, _⟩ => ⟨S256x64x64x64, .f32⟩
  | .hbm, ⟨1, _⟩ => ⟨S256x64x64x64, .f32⟩
  | .hbm, ⟨2, _⟩ => ⟨S256x262144, .f32⟩
  | .hbm, ⟨3, _⟩ => ⟨S256x262144, .f32⟩
  | .hbm, ⟨4, _⟩ => ⟨S256x256, .f32⟩
  | .hbm, ⟨5, _⟩ => ⟨S256x256, .i32⟩
  | .hbm, ⟨6, _⟩ => ⟨S256x256, .i32⟩
  | .hbm, ⟨7, _⟩ => ⟨S_, .i32⟩
  | .hbm, ⟨8, _⟩ => ⟨S256x256, .i32⟩
  | .hbm, ⟨9, _⟩ => ⟨S256x256, .i32⟩
  | .hbm, ⟨10, _⟩ => ⟨S256x256, .i1⟩
  | .hbm, ⟨11, _⟩ => ⟨S256x256, .f32⟩
  | .hbm, ⟨12, _⟩ => ⟨S_, .f32⟩
  | .hbm, ⟨13, _⟩ => ⟨S_, .f32⟩
  | .hbm, ⟨14, _⟩ => ⟨S_, .f32⟩
  | .hbm, ⟨15, _⟩ => ⟨S256x256, .f32⟩
  | .hbm, ⟨16, _⟩ => ⟨S256x256, .f32⟩
  | .hbm, ⟨17, _⟩ => ⟨S_, .f32⟩
  | .hbm, ⟨18, _⟩ => ⟨S256x256, .f32⟩
  | .hbm, ⟨19, _⟩ => ⟨S256x256, .f32⟩
  | .hbm, ⟨20, _⟩ => ⟨S256x256, .f32⟩
  | .hbm, ⟨21, _⟩ => ⟨S256x256, .f32⟩
  | .hbm, ⟨22, _⟩ => ⟨S_, .f32⟩
  | .hbm, ⟨23, _⟩ => ⟨S256x256, .f32⟩
  | .hbm, ⟨24, _⟩ => ⟨S256x256, .f32⟩
  | .hbm, ⟨25, _⟩ => ⟨S256x256, .f32⟩
  | .hbm, ⟨26, _⟩ => ⟨S256x256, .f32⟩
  | .hbm, ⟨27, _⟩ => ⟨S256x256, .f32⟩
  | .hbm, ⟨28, _⟩ => ⟨S256x256, .f32⟩
  | .hbm, ⟨29, _⟩ => ⟨S_, .f32⟩
  | .hbm, ⟨30, _⟩ => ⟨S_, .f32⟩
  | .hbm, ⟨31, _⟩ => ⟨S_, .f32⟩
  | .hbm, ⟨32, _⟩ => ⟨S_, .f32⟩
  | .hbm, ⟨33, _⟩ => ⟨S_, .f32⟩
  | .local _ .vmem, ⟨0, _⟩ => ⟨S256x8192, .f32⟩
  | .local _ .vmem, ⟨1, _⟩ => ⟨S256x8192, .f32⟩
  | .local _ .vmem, ⟨2, _⟩ => ⟨S256x8192, .f32⟩
  | .local _ .vmem, ⟨3, _⟩ => ⟨S256x8192, .f32⟩
  | .local _ .vmem, ⟨4, _⟩ => ⟨S256x256, .f32⟩
  | .local _ .vmem, ⟨5, _⟩ => ⟨S256x256, .f32⟩
  | _, _ => ⟨S256x64x64x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_c : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_cst : Ref sig .tc := ⟨.hbm, 12, rfl⟩
abbrev main_cst_0 : Ref sig .tc := ⟨.hbm, 13, rfl⟩
abbrev main_call0_v0 : Ref sig .tc := ⟨.hbm, 14, rfl⟩
abbrev main_call0_v1 : Ref sig .tc := ⟨.hbm, 15, rfl⟩
abbrev main_call0_v2 : Ref sig .tc := ⟨.hbm, 16, rfl⟩
abbrev main_call0_v3 : Ref sig .tc := ⟨.hbm, 17, rfl⟩
abbrev main_call0_v4 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_cst_1 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_2 : Ref sig .tc := ⟨.hbm, 29, rfl⟩
abbrev main_v18 : Ref sig .tc := ⟨.hbm, 30, rfl⟩
abbrev main_cst_3 : Ref sig .tc := ⟨.hbm, 31, rfl⟩
abbrev main_v19 : Ref sig .tc := ⟨.hbm, 32, rfl⟩
abbrev main_v20 : Ref sig .tc := ⟨.hbm, 33, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨1, ![32], ![false]⟩

def k0_cond2 (i : grid0.Coords) : BitVec 1 :=
  let arg0 : BitVec 32 := BitVec.ofNat 32 (i 0).val
  let c31_i32 : BitVec 32 := 31#32
  let v15 : BitVec 1 := Scalar.cmpi .eq arg0 c31_i32
  let v16 : BitVec 32 := Scalar.extui v15
  let c0_i32_8 : BitVec 32 := 0#32
  let v17 : BitVec 1 := Scalar.cmpi .ne v16 c0_i32_8
  v17

def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x8192 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x8192 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S256x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

class Facts₀ : Prop where
  shapeCasts_S256x64x64x64_S256x262144 : S256x64x64x64.ShapeCasts S256x262144
  inb_S256x256_S256x256_0_0 : ∀ a, (![0, 0] : Fin 2 → Nat) a + S256x256.size a ≤ S256x256.size a
  h_S256x256 : 0 < S256x256.numel
  shapeCasts_S256x256_S256x256 : S256x256.ShapeCasts S256x256
  inb_S256x8192_S256x8192_0_0 : ∀ a, (![0, 0] : Fin 2 → Nat) a + S256x8192.size a ≤ S256x8192.size a
  h_S256x8192 : 0 < S256x8192.numel
  shapeCasts_S256x8192_S256x8192 : S256x8192.ShapeCasts S256x8192
  bitsLt_bf16_f32 : FTy.bits .bf16 < FTy.bits .f32
  bcast_S_S256x256 : S_.BroadcastsInDim S256x256 (![] : Fin 0 → Fin S256x256.rank)
  reducesTo_S256x256_S_d0_1 : S256x256.ReducesTo [0, 1] S_
  h_S_ : 0 < S_.numel
  dot_S256x8192_S256x8192_S256x256_1_1_0_0_n_n_wf : DotDims.WF S256x8192 S256x8192 S256x256 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x8192.size a ≤ S256x262144.size a
  hwx0_0 : ∀ i : grid0.Coords, EltTy.bits .f32 = 32 ∨ (Rect.block (s := S256x262144) S256x8192.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S256x8192.size a ≤ S256x262144.size a
  hwx0_1 : ∀ i : grid0.Coords, EltTy.bits .f32 = 32 ∨ (Rect.block (s := S256x262144) S256x8192.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S256x256.size a ≤ S256x256.size a
  hwx0_2 : ∀ i : grid0.Coords, EltTy.bits .f32 = 32 ∨ (Rect.block (s := S256x256) S256x256.size (cc0_transform_2 i) (hinb0_2 i)).WholeWords (EltTy.packing .f32)

variable [Facts₀]

def dot_S256x8192_S256x8192_S256x256_1_1_0_0_n_n : DotDims S256x8192 S256x8192 S256x256 where
  lhsContracting := [1]
  rhsContracting := [1]
  lhsNonContracting := [0]
  rhsNonContracting := [0]
  lhsBatch := []
  rhsBatch := []
  wf := dot_S256x8192_S256x8192_S256x256_1_1_0_0_n_n_wf

abbrev win0_0 : Pipeline.Window sig grid0 :=
  Pipeline.Window.ofSpec (Memref.whole main_v0) S256x8192.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S256x8192.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2) S256x256.size cc0_transform_2 reads0_2 true true 1 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev idle0 : Fin 3 → grid0.Coords → Bool := fun | 0 => fun _ => false | 1 => fun _ => false | 2 => fun i => !(k0_cond2 i == 1#1) | ⟨_ + 3, h⟩ => absurd h (Nat.not_lt.2 (Nat.le_add_left _ _))

class Facts : Prop extends Facts₀ where

variable [Facts]
-- ==== ReferenceIdeal.lean ====
abbrev S256x64x64x64 : Shape := ⟨4, ![256, 64, 64, 64]⟩
abbrev S256x262144 : Shape := ⟨2, ![256, 262144]⟩
abbrev S256x256 : Shape := ⟨2, ![256, 256]⟩
abbrev S_ : Shape := ⟨0, ![]⟩

abbrev nBuf : Space → Nat
  | .hbm => 45
  | .vmem => 0
  | .smem => 0
  | _ => 0

abbrev bufTy : (tb : Table) → Fin (tcTables nBuf tb) → BufTy
  | .hbm, ⟨0, _⟩ => ⟨S256x64x64x64, .f32⟩
  | .hbm, ⟨1, _⟩ => ⟨S256x64x64x64, .f32⟩
  | .hbm, ⟨2, _⟩ => ⟨S256x262144, .f32⟩
  | .hbm, ⟨3, _⟩ => ⟨S256x262144, .f32⟩
  | .hbm, ⟨4, _⟩ => ⟨S256x256, .f32⟩
  | .hbm, ⟨5, _⟩ => ⟨S_, .f32⟩
  | .hbm, ⟨6, _⟩ => ⟨S256x256, .f32⟩
  | .hbm, ⟨7, _⟩ => ⟨S256x256, .f32⟩
  | .hbm, ⟨8, _⟩ => ⟨S256x256, .f32⟩
  | .hbm, ⟨9, _⟩ => ⟨S256x256, .f32⟩
  | .hbm, ⟨10, _⟩ => ⟨S_, .f32⟩
  | .hbm, ⟨11, _⟩ => ⟨S256x256, .f32⟩
  | .hbm, ⟨12, _⟩ => ⟨S256x256, .f32⟩
  | .hbm, ⟨13, _⟩ => ⟨S_, .f32⟩
  | .hbm, ⟨14, _⟩ => ⟨S256x256, .f32⟩
  | .hbm, ⟨15, _⟩ => ⟨S256x256, .f32⟩
  | .hbm, ⟨16, _⟩ => ⟨S256x256, .i32⟩
  | .hbm, ⟨17, _⟩ => ⟨S256x256, .i32⟩
  | .hbm, ⟨18, _⟩ => ⟨S_, .i32⟩
  | .hbm, ⟨19, _⟩ => ⟨S256x256, .i32⟩
  | .hbm, ⟨20, _⟩ => ⟨S256x256, .i32⟩
  | .hbm, ⟨21, _⟩ => ⟨S256x256, .i1⟩
  | .hbm, ⟨22, _⟩ => ⟨S256x256, .f32⟩
  | .hbm, ⟨23, _⟩ => ⟨S_, .f32⟩
  | .hbm, ⟨24, _⟩ => ⟨S_, .f32⟩
  | .hbm, ⟨25, _⟩ => ⟨S_, .f32⟩
  | .hbm, ⟨26, _⟩ => ⟨S256x256, .f32⟩
  | .hbm, ⟨27, _⟩ => ⟨S256x256, .f32⟩
  | .hbm, ⟨28, _⟩ => ⟨S_, .f32⟩
  | .hbm, ⟨29, _⟩ => ⟨S256x256, .f32⟩
  | .hbm, ⟨30, _⟩ => ⟨S256x256, .f32⟩
  | .hbm, ⟨31, _⟩ => ⟨S256x256, .f32⟩
  | .hbm, ⟨32, _⟩ => ⟨S256x256, .f32⟩
  | .hbm, ⟨33, _⟩ => ⟨S_, .f32⟩
  | .hbm, ⟨34, _⟩ => ⟨S256x256, .f32⟩
  | .hbm, ⟨35, _⟩ => ⟨S256x256, .f32⟩
  | .hbm, ⟨36, _⟩ => ⟨S256x256, .f32⟩
  | .hbm, ⟨37, _⟩ => ⟨S256x256, .f32⟩
  | .hbm, ⟨38, _⟩ => ⟨S256x256, .f32⟩
  | .hbm, ⟨39, _⟩ => ⟨S256x256, .f32⟩
  | .hbm, ⟨40, _⟩ => ⟨S_, .f32⟩
  | .hbm, ⟨41, _⟩ => ⟨S_, .f32⟩
  | .hbm, ⟨42, _⟩ => ⟨S_, .f32⟩
  | .hbm, ⟨43, _⟩ => ⟨S_, .f32⟩
  | .hbm, ⟨44, _⟩ => ⟨S_, .f32⟩
  | _, _ => ⟨S256x64x64x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_cst : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_cst_0 : Ref sig .tc := ⟨.hbm, 10, rfl⟩
abbrev main_v7 : Ref sig .tc := ⟨.hbm, 11, rfl⟩
abbrev main_v8 : Ref sig .tc := ⟨.hbm, 12, rfl⟩
abbrev main_cst_1 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_c : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_cst_2 : Ref sig .tc := ⟨.hbm, 23, rfl⟩
abbrev main_cst_3 : Ref sig .tc := ⟨.hbm, 24, rfl⟩
abbrev main_call0_v0 : Ref sig .tc := ⟨.hbm, 25, rfl⟩
abbrev main_call0_v1 : Ref sig .tc := ⟨.hbm, 26, rfl⟩
abbrev main_call0_v2 : Ref sig .tc := ⟨.hbm, 27, rfl⟩
abbrev main_call0_v3 : Ref sig .tc := ⟨.hbm, 28, rfl⟩
abbrev main_call0_v4 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_cst_4 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_cst_5 : Ref sig .tc := ⟨.hbm, 40, rfl⟩
abbrev main_v26 : Ref sig .tc := ⟨.hbm, 41, rfl⟩
abbrev main_cst_6 : Ref sig .tc := ⟨.hbm, 42, rfl⟩
abbrev main_v27 : Ref sig .tc := ⟨.hbm, 43, rfl⟩
abbrev main_v28 : Ref sig .tc := ⟨.hbm, 44, rfl⟩

abbrev nD : Nat := 1
abbrev τ : Topo := Topo.v7x

variable {F : FTy → Type} [FloatOps F]

class Facts₀ : Prop where
  shapeCasts_S256x64x64x64_S256x262144 : S256x64x64x64.ShapeCasts S256x262144
  bcast_S_S256x256 : S_.BroadcastsInDim S256x256 (![] : Fin 0 → Fin S256x256.rank)
  reducesTo_S256x256_S_d0_1 : S256x256.ReducesTo [0, 1] S_
  h_S_ : 0 < S_.numel
  dot_S256x262144_S256x262144_S256x256_1_1_0_0_n_n_wf : DotDims.WF S256x262144 S256x262144 S256x256 [1] [1] [0] [0] [] []

variable [Facts₀]

def dot_S256x262144_S256x262144_S256x256_1_1_0_0_n_n : DotDims S256x262144 S256x262144 S256x256 where
  lhsContracting := [1]
  rhsContracting := [1]
  lhsNonContracting := [0]
  rhsNonContracting := [0]
  lhsBatch := []
  rhsBatch := []
  wf := dot_S256x262144_S256x262144_S256x256_1_1_0_0_n_n_wf

class Facts : Prop extends Facts₀ where

variable [Facts]
-- ==== Proof.Pieces.lean ====
/-
  What one grid step of the kernel leaves behind, as values.

  The kernel walks the contraction axis in 32 steps. It keeps a 256×256 accumulator: the first step
  clears it, every step adds to it the product of that step's two 256×8192 input blocks, and the last
  step also stores the logistic of the scaled accumulator into the output block. Each lemma below reads
  the step's covering store(s) back as one pure term of the step's input blocks `x0`, `x1` and of the
  accumulator `xs` the step started from:

    first step        accumulator  ↦  step (zero) x0 x1
    a middle step     accumulator  ↦  step xs x0 x1
    last step         accumulator  ↦  step xs x0 x1,   output  ↦  squash (step xs x0 x1)

  where `step` is the kernel's add-the-block-product term and `squash` its scale-then-logistic term.
  All of it holds for any float values; nothing is computed here.
-/
import proofs.«152323_j29497835389667_1_alg».proof.Proof.Gen.KernelIdeal.Frame
import Idealize.ShloMosaic.Lib.Pipeline.Value
import Idealize.ShloMosaic.Lib.Tactic

noncomputable section

open Idealize.ShloMosaic Idealize.ShloMosaic.TcCoe Idealize.SL.Sem

namespace Cert.KernelIdeal.Pieces

open Cert.KernelIdeal Cert.KernelIdeal.Gen

variable {F : FTy → Type} [FloatOps F]

/-- Every store and load of the body is at offset (0, 0) of a whole buffer. -/
theorem origin : (![0, 0] : Fin 2 → Nat) = fun _ => 0 := funext fun a => by fin_cases a <;> rfl

/-- A middle step: the accumulator ends at the old accumulator plus the block product. -/
theorem acc_middle (c : Dev nD) (i : grid0.Coords) (a1 : Memref sig .tc .vmem S256x8192 .f32) (h1 : a1.IsWhole)
    (a2 : Memref sig .tc .vmem S256x8192 .f32) (h2 : a2.IsWhole) (a3 : Memref sig .tc .vmem S256x256 .f32) (h3 : a3.IsWhole)
    (a4 : Memref sig .tc .vmem S256x256 .f32) (h4 : a4.IsWhole) (hc0 : ¬cond0_0 i) (hc1 : ¬cond0_1 i)
    (x0 x1 : Vec F S256x8192 .f32) (xs : Vec F S256x256 .f32) :
    sout0_B_0 c i a1 h1 a2 h2 a3 h3 a4 h4 hc0 hc1 x0 x1 xs = k0_pay2 x0 x1 xs := by
  unfold sout0_B_0
  rw [View.read_writes_eq_canon _ _ _ (scover0_B_0 c i a1 h1 a2 h2 a3 h3 a4 h4 hc0 hc1 x0 x1 xs)]
  unfold kernelRun0_B
  dsimp only
  rw [View.canon_unit_zero origin]
  simp only [View.readAt_eq_ld, h1.read_unread, h2.read_unread, h4.read_unread,
    View.ld_unit_zero (S := S256x8192) origin, View.ld_unit_zero (S := S256x256) origin]

/-- The last step: the accumulator ends at the old accumulator plus the block product, -/
theorem acc_last (c : Dev nD) (i : grid0.Coords) (a1 : Memref sig .tc .vmem S256x8192 .f32) (h1 : a1.IsWhole)
    (a2 : Memref sig .tc .vmem S256x8192 .f32) (h2 : a2.IsWhole) (a3 : Memref sig .tc .vmem S256x256 .f32) (h3 : a3.IsWhole)
    (a4 : Memref sig .tc .vmem S256x256 .f32) (h4 : a4.IsWhole) (hc0 : ¬cond0_0 i) (hc1 : cond0_1 i)
    (x0 x1 : Vec F S256x8192 .f32) (xs : Vec F S256x256 .f32) :
    sout0_C_0 c i a1 h1 a2 h2 a3 h3 a4 h4 hc0 hc1 x0 x1 xs = k0_pay2 x0 x1 xs := by
  unfold sout0_C_0
  rw [View.read_writes_eq_canon _ _ _ (scover0_C_0 c i a1 h1 a2 h2 a3 h3 a4 h4 hc0 hc1 x0 x1 xs)]
  unfold kernelRun0_C
  dsimp only
  sl_unfold_words
  rw [View.canon_unit_zero origin]
  simp only [View.readAt_eq_ld, h1.read_unread, h2.read_unread, h4.read_unread,
    View.ld_unit_zero (S := S256x8192) origin, View.ld_unit_zero (S := S256x256) origin]

/-- and the output block at the scaled logistic of that final accumulator (the body reads the accumulator
    back right after storing it). -/
theorem out_last (c : Dev nD) (i : grid0.Coords) (a1 : Memref sig .tc .vmem S256x8192 .f32) (h1 : a1.IsWhole)
    (a2 : Memref sig .tc .vmem S256x8192 .f32) (h2 : a2.IsWhole) (a3 : Memref sig .tc .vmem S256x256 .f32) (h3 : a3.IsWhole)
    (a4 : Memref sig .tc .vmem S256x256 .f32) (h4 : a4.IsWhole) (hc0 : ¬cond0_0 i) (hc1 : cond0_1 i)
    (x0 x1 : Vec F S256x8192 .f32) (xs : Vec F S256x256 .f32) :
    out0_C_2 c i a1 h1 a2 h2 a3 h3 a4 h4 hc0 hc1 x0 x1 xs = k0_pay3 (k0_pay2 x0 x1 xs) := by
  unfold out0_C_2
  rw [View.read_writes_eq_canon _ _ _ (cover0_C_2 c i a1 h1 a2 h2 a3 h3 a4 h4 hc0 hc1 x0 x1 xs)]
  unfold kernelRun0_C
  dsimp only
  sl_unfold_words
  rw [View.canon_unit_zero origin, View.readCov_unit_zero (S := S256x256) _ origin]
  simp only [View.readAt_eq_ld, h1.read_unread, h2.read_unread, h4.read_unread,
    View.ld_unit_zero (S := S256x8192) origin, View.ld_unit_zero (S := S256x256) origin]

/-- The first step: the accumulator is cleared, read back, and ends at zero plus the block product. -/
theorem acc_first (c : Dev nD) (i : grid0.Coords) (a1 : Memref sig .tc .vmem S256x8192 .f32) (h1 : a1.IsWhole)
    (a2 : Memref sig .tc .vmem S256x8192 .f32) (h2 : a2.IsWhole) (a3 : Memref sig .tc .vmem S256x256 .f32) (h3 : a3.IsWhole)
    (a4 : Memref sig .tc .vmem S256x256 .f32) (h4 : a4.IsWhole) (hc0 : cond0_0 i) (hc1 : ¬cond0_1 i)
    (x0 x1 : Vec F S256x8192 .f32) :
    sout0_A_0 c i a1 h1 a2 h2 a3 h3 a4 h4 hc0 hc1 x0 x1 = k0_pay2 x0 x1 (k0_pay1 (F := F)) := by
  unfold sout0_A_0
  rw [View.read_writes_eq_canon _ _ _ (scover0_A_0 c i a1 h1 a2 h2 a3 h3 a4 h4 hc0 hc1 x0 x1)]
  unfold kernelRun0_A
  dsimp only
  sl_unfold_words
  rw [View.canon_cons_unit_zero (S := S256x256) origin, View.readCov_unit_zero (S := S256x256) _ origin]
  simp only [View.readAt_eq_ld, h1.read_unread, h2.read_unread,
    View.ld_unit_zero (S := S256x8192) origin]

end Cert.KernelIdeal.Pieces

end
-- ==== Proof.Accum.lean ====
/-
  The accumulator across the 32 grid steps.

  After step 0 it holds (zero + product of step 0's blocks); after step n + 1 it holds what step n left
  plus the product of step n + 1's blocks. `acc` is that recursion, written with the kernel's own
  add-the-block-product term; `carried_eq` shows, by induction on the step, that this is what the kernel
  carries from step to step, and `out_eq` that the output block written at the last step is the kernel's
  scale-then-logistic term of the final accumulator. For any float values.
-/
import proofs.«152323_j29497835389667_1_alg».proof.Proof.Pieces

noncomputable section

open Idealize.ShloMosaic Idealize.ShloMosaic.TcCoe Idealize.SL.Sem

namespace Cert.KernelIdeal.Accum

open Cert.KernelIdeal Cert.KernelIdeal.Gen

variable {F : FTy → Type} [FloatOps F]
variable (m : (ℓ : Loc nD τ sig) → Buf (Elt F) ℓ)

/-- The accumulator after step `n`: zero plus the block products of steps 0, …, n, added in step order. -/
def acc (c : Dev nD) : (n : ℕ) → n < cfg0.N → Vec F S256x256 .f32
  | 0, h => k0_pay2 (iblk m c 0 ⟨0, h⟩) (iblk m c 1 ⟨0, h⟩) (k0_pay1 (F := F))
  | n + 1, h => k0_pay2 (iblk m c 0 ⟨n + 1, h⟩) (iblk m c 1 ⟨n + 1, h⟩) (acc c n (Nat.lt_of_succ_lt h))

/-- What the kernel carries in its scratch buffer after step `n` is that accumulator. -/
theorem carried_eq (c : Dev nD) : ∀ (n : ℕ) (h : n < cfg0.N), (outsAt0 m c n h).2 = acc m c n h
  | 0, h => by
    rw [outsAt0_A m c ⟨0, h⟩ rfl (by show ¬ (0 % 32 = 31); decide)]
    dsimp only
    exact Pieces.acc_first c (grid0.coords ⟨0, h⟩) (ms0_0 ⟨0, h⟩) (hs0_0 ⟨0, h⟩) (ms0_1 ⟨0, h⟩) (hs0_1 ⟨0, h⟩) (ms0_2 ⟨0, h⟩) (hs0_2 ⟨0, h⟩) scM0_0 (Memref.isWhole_whole _) _ _ (iblk m c 0 ⟨0, h⟩) (iblk m c 1 ⟨0, h⟩)
  | n + 1, h => by
    have hN : cfg0.N = 32 := N_0
    have h0 : ¬(⟨n + 1, h⟩ : Fin cfg0.N).val % 32 = 0 := by dsimp only; omega
    by_cases h1 : (⟨n + 1, h⟩ : Fin cfg0.N).val % 32 = 31
    · rw [outsAt0_C m c ⟨n + 1, h⟩ h0 h1]
      dsimp only
      refine (Pieces.acc_last c (grid0.coords ⟨n + 1, h⟩) (ms0_0 ⟨n + 1, h⟩) (hs0_0 ⟨n + 1, h⟩) (ms0_1 ⟨n + 1, h⟩) (hs0_1 ⟨n + 1, h⟩) (ms0_2 ⟨n + 1, h⟩) (hs0_2 ⟨n + 1, h⟩) scM0_0 (Memref.isWhole_whole _) _ _ (iblk m c 0 ⟨n + 1, h⟩) (iblk m c 1 ⟨n + 1, h⟩) _).trans ?_
      show k0_pay2 _ _ (outsAt0 m c n _).2 = k0_pay2 _ _ (acc m c n _)
      rw [carried_eq c n]
    · rw [outsAt0_B m c ⟨n + 1, h⟩ h0 h1]
      dsimp only
      refine (Pieces.acc_middle c (grid0.coords ⟨n + 1, h⟩) (ms0_0 ⟨n + 1, h⟩) (hs0_0 ⟨n + 1, h⟩) (ms0_1 ⟨n + 1, h⟩) (hs0_1 ⟨n + 1, h⟩) (ms0_2 ⟨n + 1, h⟩) (hs0_2 ⟨n + 1, h⟩) scM0_0 (Memref.isWhole_whole _) _ _ (iblk m c 0 ⟨n + 1, h⟩) (iblk m c 1 ⟨n + 1, h⟩) _).trans ?_
      show k0_pay2 _ _ (outsAt0 m c n _).2 = k0_pay2 _ _ (acc m c n _)
      rw [carried_eq c n]

/-- The output block after the last step: the scaled logistic of the final accumulator. -/
theorem out_eq (c : Dev nD) (h : 31 < cfg0.N) : (outsAt0 m c 31 h).1 = k0_pay3 (acc m c 31 h) := by
  have h0 : ¬(⟨31, h⟩ : Fin cfg0.N).val % 32 = 0 := by dsimp only; decide
  have h1 : (⟨31, h⟩ : Fin cfg0.N).val % 32 = 31 := rfl
  rw [outsAt0_C m c ⟨31, h⟩ h0 h1]
  dsimp only
  refine (Pieces.out_last c (grid0.coords ⟨31, h⟩) (ms0_0 ⟨31, h⟩) (hs0_0 ⟨31, h⟩) (ms0_1 ⟨31, h⟩) (hs0_1 ⟨31, h⟩) (ms0_2 ⟨31, h⟩) (hs0_2 ⟨31, h⟩) scM0_0 (Memref.isWhole_whole _) _ _ (iblk m c 0 ⟨31, h⟩) (iblk m c 1 ⟨31, h⟩) _).trans ?_
  show k0_pay3 (k0_pay2 _ _ (outsAt0 m c 30 _).2) = k0_pay3 (k0_pay2 _ _ (acc m c 30 _))
  rw [carried_eq m c 30]

end Cert.KernelIdeal.Accum

end
-- ==== Proof.Tail.lean ====
/-
  The loss both programs compute from the 256×256 matrix P of probabilities: with E the identity
  matrix and clip(P) = min(1, max(1e-12, P)),

      loss(P) = −( Σ_{n,m} ( E·log(clip P) + (1 − E)·log1p(−clip P) ) ) / 65536.

  Kernel program and reference spell it with the same host operations in the same order, so it is
  carried here as ONE function of P and never opened: equal probabilities give equal losses.
  The three hypotheses are the shape facts the operations take (a scalar broadcasts to the matrix, the
  matrix reduces over both axes to a scalar, the scalar shape is inhabited); they are propositions, so
  whose proofs are passed does not matter.
-/
import Idealize.ShloMosaic.PureOps

noncomputable section

namespace Cert.Tail

open Idealize.ShloMosaic

/-- The 256×256 matrix shape and the scalar shape. -/
abbrev Mat : Shape := ⟨2, ![256, 256]⟩
abbrev Sca : Shape := ⟨0, ![]⟩

/-- The binary-cross-entropy loss against the identity labels, as the host operations both programs apply. -/
def loss {F : FTy → Type} [FloatOps F] (hb : Sca.BroadcastsInDim Mat (![] : Fin 0 → Fin Mat.rank))
    (hr : Mat.ReducesTo [0, 1] Sca) (h0 : 0 < Sca.numel) (P : FVec F Mat .f32) : FVec F Sca .f32 :=
  Host.negf (Host.divf (Host.reduceAdd (addf (mulf (uitofp .f32 (cmpi .eq (addi (iotaInDim Mat 32 0) (broadcastInDim Mat ![] hb (constantI Sca 32 0#32))) (iotaInDim Mat 32 1))) (Host.log (minimumf (broadcastInDim Mat ![] hb (id (constant Sca .f32 0x3F800000#32))) (maximumf (broadcastInDim Mat ![] hb (id (constant Sca .f32 0x2B8CBCCC#32))) P)))) (mulf (subf (broadcastInDim Mat ![] hb (constant Sca .f32 0x3F800000#32)) (uitofp .f32 (cmpi .eq (addi (iotaInDim Mat 32 0) (broadcastInDim Mat ![] hb (constantI Sca 32 0#32))) (iotaInDim Mat 32 1)))) (Host.log1p (Host.negf (minimumf (broadcastInDim Mat ![] hb (id (constant Sca .f32 0x3F800000#32))) (maximumf (broadcastInDim Mat ![] hb (id (constant Sca .f32 0x2B8CBCCC#32))) P)))))) (constant Sca .f32 0x00000000#32) hr h0) (constant Sca .f32 0x47800000#32))

end Cert.Tail

end
-- ==== Proof.Result.lean ====
/-
  What the kernel program returns.

  The output window's block is the whole 256×256 array and its index never moves, so it is written back
  once, after the last of the 32 steps; what is written is the probabilities — the scale-then-logistic term
  of the final accumulator (`flushed_eq`, `final`). The host operations that follow turn that array into the
  loss (`tail_of`: they are one function of the array, whatever else the buffers hold), so the program's
  result is the loss of the probabilities and its arguments are untouched (`run`). For any float values.
-/
import proofs.«152323_j29497835389667_1_alg».proof.Proof.Accum
import proofs.«152323_j29497835389667_1_alg».proof.Proof.Tail
import Idealize.ShloMosaic.Lib.Pipeline.Value
import Idealize.ShloMosaic.Lib.StableHlo.Run
import Idealize.ShloMosaic.Lib.Tactic

noncomputable section

open Idealize.ShloMosaic Idealize.ShloMosaic.TcCoe Idealize.SL.Sem
open Idealize.ShloMosaic.Pipeline (Dat)

namespace Cert.KernelIdeal.Result

open Cert.KernelIdeal Cert.KernelIdeal.Gen

variable {F : FTy → Type} [FloatOps F]
variable (m : (ℓ : Loc nD τ sig) → Buf (Elt F) ℓ) (ρ : Dev nD → PrngReg)

/-- The last of the 32 grid steps. -/
abbrev lastStep : Fin cfg0.N := ⟨31, by rw [show cfg0.N = 32 from N_0]; decide⟩

/-- The matrix of probabilities: the kernel's scale-then-logistic term of the accumulator after the last step. -/
abbrev probs (c : Dev nD) : Buf (Elt F) ((c : Thread nD τ).loc main_v2) :=
  k0_pay3 (Accum.acc m c 31 lastStep.isLt)

/-- The one write-back, after the last step, writes the probabilities: the output's block is the whole
    256×256 array, at offset (0, 0). -/
theorem flushed_eq (c : Dev nD) (t : Fin cfg0.N) (hf : (cfg0.win 2).flush t = true) :
    (dats m 0 c).flushed 2 t = ((cfg0.win 2).blk t).view.read (Elt F) (probs m c) := by
  have hN : cfg0.N = 32 := N_0
  have h31 : t.val = 31 := by have := (flush0_2 t).mp hf; have := t.isLt; omega
  obtain rfl : t = lastStep := Fin.ext h31
  show (cfg0.win 2).cut (grid0.coords lastStep) ((dats m 0 c).after 2 lastStep) = _
  rw [after0_2]
  show (cfg0.win 2).cut (grid0.coords lastStep) (outsAt0 m c 31 lastStep.isLt).1 = _
  rw [Accum.out_eq m c lastStep.isLt]
  have hz' : (fun a => win0_2.index lastStep a * main_v2.ty.shape.size a) = fun _ => 0 :=
    funext fun a => by fin_cases a <;> decide +kernel
  exact (Memref.read_access_unit_zero (Elt F) main_v2 hz' (fun a => by rw [congrFun hz' a]; simp) (probs m c)).symm

/-- So the output array ends holding the probabilities: the last step's block covers every entry. -/
theorem final (c : Dev nD) : (dats m 0 c).arrAt 2 cfg0.N = probs m c :=
  (dats m 0 c).arrAt_eq_of_cover 2 (probs m c) (flushed_eq m c) fun i =>
    ⟨lastStep, (flush0_2 lastStep).mpr rfl, by
      show i ∈ ((View.whole main_v2).slice (win0_2.rect lastStep)).set
      rw [View.set_slice_whole, Rect.mem_set_unit]
      intro a
      have h0 : (i 0 : Nat) < 256 := (i 0).isLt
      have h1 : (i 1 : Nat) < 256 := (i 1).isLt
      match a with
      | ⟨0, _⟩ =>
        show win0_2.index lastStep 0 * win0_2.size 0 ≤ (i 0 : Nat) ∧ (i 0 : Nat) < win0_2.index lastStep 0 * win0_2.size 0 + win0_2.xsize (grid0.coords lastStep) 0
        rw [show win0_2.index lastStep 0 * win0_2.size 0 = 0 from by decide +kernel, show win0_2.xsize (grid0.coords lastStep) 0 = 256 from by decide +kernel]; omega
      | ⟨1, _⟩ =>
        show win0_2.index lastStep 1 * win0_2.size 1 ≤ (i 1 : Nat) ∧ (i 1 : Nat) < win0_2.index lastStep 1 * win0_2.size 1 + win0_2.xsize (grid0.coords lastStep) 1
        rw [show win0_2.index lastStep 1 * win0_2.size 1 = 0 from by decide +kernel, show win0_2.xsize (grid0.coords lastStep) 1 = 256 from by decide +kernel]; omega⟩

/-- The host operations after the region, run from ANY contents `W` of the buffers, leave in the result
    buffer the loss of whatever `W` holds in the region's output array. -/
theorem tail_of (W : Valuation τ sig (Elt F)) :
    StableHlo.after ([hostOps1, hostOps1_1, hostOps1_2] : List (List (HloOp τ sig (Elt F)))).flatten W (Proc.devRef .tc main_v20)
      = Tail.loss bcast_S_S256x256 reducesTo_S256x256_S_d0_1 h_S_ (W (Proc.devRef .tc main_v2)) := by
  simp only [hostOps1, hostOps1_1, hostOps1_2, List.flatten_cons, List.flatten_nil, List.append_nil, List.cons_append, List.nil_append]
  after_results_simp
  rfl

/-- After the whole program the result buffer holds the loss of the probabilities. -/
theorem tail_eq (c : Dev nD) :
    Pipeline.afterTail₀ cfgs (dats m) 0 (V0 m) [hostOps1, hostOps1_1, hostOps1_2] c main_v20
      = Tail.loss bcast_S_S256x256 reducesTo_S256x256_S_d0_1 h_S_ (probs m c) := by
  unfold Pipeline.afterTail₀
  exact (tail_of _).trans (congrArg (Tail.loss bcast_S_S256x256 reducesTo_S256x256_S_d0_1 h_S_)
    ((Pipeline.withArrays_arr spec0 launch0.win.arr_inj c (V0 m c) _ 2).trans (final m c)))

/-- The kernel program's run, read: every weakly fair execution terminates with the result at the loss of the
    probabilities and both arguments as they were. -/
theorem run : θ_run defs (onTc (τ := τ) (main (F := F))) ⟨m, fun _ => 0, ρ⟩ fun r => ∀ c : Dev nD,
      r.2.mem ((c : Thread nD τ).loc main_v20) = Tail.loss bcast_S_S256x256 reducesTo_S256x256_S_d0_1 h_S_ (probs m c)
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun _ h c =>
    ⟨((h c).2 main_v20 (Pipeline.mem_restRefs_of main_v20 (by decide) (by decide))).trans (tail_eq m c),
     ((h c).2 main_arg0 (Pipeline.mem_restRefs_of main_arg0 (by decide) (by decide))).trans (W_main_arg0 m (dats m) c),
     ((h c).2 main_arg1 (Pipeline.mem_restRefs_of main_arg1 (by decide) (by decide))).trans (W_main_arg1 m (dats m) c)⟩)
    (run_main m ρ)

end Cert.KernelIdeal.Result

end
-- ==== Proof.Payload.lean ====
/-
  The kernel's three pure terms, read at one entry (p, q) of the 256×256 block, over the extended reals.

    clear     ↦ 0
    step      ↦ xs[p, q] + Σ_{k < 8192} x0[p, k] · x1[q, k]     (both blocks contracted over their lanes;
                 the narrowing of the two blocks to bf16 is the identity on extended reals, and the matrix
                 unit's accumulator operand is the zero splat)
    squash    ↦ logistic (v[p, q] · 2⁻¹⁸)
-/
import proofs.«152323_j29497835389667_1_alg».proof.Proof.Gen.KernelIdeal.Skeleton
import Idealize.ShloMosaic.Lib.ValueIdx
import Idealize.ShloMosaic.Lib.Pipeline.Value
import Idealize.ShloMosaic.PureOps.Ideal.Laws

noncomputable section

open Idealize.ShloMosaic Idealize.ShloMosaic.ValueIdx

namespace Cert.KernelIdeal.Payload

open Cert.KernelIdeal Cert.KernelIdeal.Gen

/-- The left operand of entry `i` of the product is read in row `i 0`, -/
theorem lhs_row (i : S256x256.Idx) (r : dot_S256x8192_S256x8192_S256x256_1_1_0_0_n_n.contr.Idx) :
    (dot_S256x8192_S256x8192_S256x256_1_1_0_0_n_n.lhsIdx i r 0).val = (i 0).val := by
  unfold DotDims.lhsIdx
  rw [dif_neg (show ¬(0 : Fin S256x8192.rank) ∈ dot_S256x8192_S256x8192_S256x256_1_1_0_0_n_n.lhsBatch by decide), dif_pos (show (0 : Fin S256x8192.rank) ∈ dot_S256x8192_S256x8192_S256x256_1_1_0_0_n_n.lhsNonContracting by decide)]
  rfl

/-- and the right operand in row `i 1`: both blocks are contracted over their lanes. -/
theorem rhs_row (i : S256x256.Idx) (r : dot_S256x8192_S256x8192_S256x256_1_1_0_0_n_n.contr.Idx) :
    (dot_S256x8192_S256x8192_S256x256_1_1_0_0_n_n.rhsIdx i r 0).val = (i 1).val := by
  unfold DotDims.rhsIdx
  rw [dif_neg (show ¬(0 : Fin S256x8192.rank) ∈ dot_S256x8192_S256x8192_S256x256_1_1_0_0_n_n.rhsBatch by decide), dif_pos (show (0 : Fin S256x8192.rank) ∈ dot_S256x8192_S256x8192_S256x256_1_1_0_0_n_n.rhsNonContracting by decide)]
  rfl

/-- Row `p` of the left block against row `q` of the right block: the matrix unit's contraction over the
    8192 lanes, into a zero accumulator, is the plain sum of the products. -/
theorem blockProduct_apply (x0 x1 : FVec Ideal S256x8192 .bf16) (p q : Fin 256) :
    FloatOps.matmul dot_S256x8192_S256x8192_S256x256_1_1_0_0_n_n none x0 x1 (constant S256x256 .f32 0x00000000#32) (ix2 p q)
      = ∑ k : Fin 8192, x0 (ix2 p k) * x1 (ix2 q k) := by
  rw [Ideal.matmul_constant_zero_apply, ← Equiv.sum_comp (contrEquiv1 dot_S256x8192_S256x8192_S256x256_1_1_0_0_n_n 8192 rfl rfl).symm]
  refine Finset.sum_congr rfl fun k _ => ?_
  have hk := contrEquiv1_symm_val dot_S256x8192_S256x8192_S256x256_1_1_0_0_n_n 8192 rfl rfl k
  have el : dot_S256x8192_S256x8192_S256x256_1_1_0_0_n_n.lhsIdx (ix2 p q) ((contrEquiv1 dot_S256x8192_S256x8192_S256x256_1_1_0_0_n_n 8192 rfl rfl).symm k) = ix2 p k := funext fun a => Fin.ext (by
    match a with
    | ⟨0, _⟩ => exact lhs_row _ _
    | ⟨1, _⟩ => exact (dot_S256x8192_S256x8192_S256x256_1_1_0_0_n_n.lhsIdx_val_of_single rfl _ _).trans hk)
  have er : dot_S256x8192_S256x8192_S256x256_1_1_0_0_n_n.rhsIdx (ix2 p q) ((contrEquiv1 dot_S256x8192_S256x8192_S256x256_1_1_0_0_n_n 8192 rfl rfl).symm k) = ix2 q k := funext fun a => Fin.ext (by
    match a with
    | ⟨0, _⟩ => exact rhs_row _ _
    | ⟨1, _⟩ => exact (dot_S256x8192_S256x8192_S256x256_1_1_0_0_n_n.rhsIdx_val_of_single rfl _ _).trans hk)
  rw [el, er]

/-- The step term as vector operations, its same-shape casts dropped. -/
theorem step_eq (x0 x1 : Vec Ideal S256x8192 .f32) (xs : Vec Ideal S256x256 .f32) :
    k0_pay2 (F := Ideal) x0 x1 xs
      = addf xs (matmul dot_S256x8192_S256x8192_S256x256_1_1_0_0_n_n none (truncf .bf16 (x0 : FVec Ideal S256x8192 .f32) bitsLt_bf16_f32)
          (truncf .bf16 (x1 : FVec Ideal S256x8192 .f32) bitsLt_bf16_f32) (constant S256x256 .f32 0x00000000#32)) := by
  unfold k0_pay2
  simp only [shapeCast_self]

/-- One step at entry (p, q): the accumulator's entry plus the 8192 products of the two blocks' rows. -/
theorem step_apply (x0 x1 : Vec Ideal S256x8192 .f32) (xs : Vec Ideal S256x256 .f32) (p q : Fin 256) :
    k0_pay2 (F := Ideal) x0 x1 xs (ix2 p q) = xs (ix2 p q) + ∑ k : Fin 8192, x0 (ix2 p k) * x1 (ix2 q k) := by
  rw [step_eq]
  exact congrArg (xs (ix2 p q) + ·) (blockProduct_apply _ _ p q)

/-- The cleared accumulator is zero everywhere. -/
theorem clear_apply (j : S256x256.Idx) : k0_pay1 (F := Ideal) j = 0 := by
  unfold k0_pay1
  simp only [shapeCast_self]
  exact Ideal.ofBits_zero_f32

/-- The output term at an entry: the logistic function of the entry times the kernel's factor 2⁻¹⁸. -/
theorem squash_apply (v : Vec Ideal S256x256 .f32) (j : S256x256.Idx) :
    k0_pay3 (F := Ideal) v j = Ideal.logistic (v j * Ideal.ofBits .f32 0x36800000#32) := rfl

end Cert.KernelIdeal.Payload

end
-- ==== Proof.Blocks.lean ====
/-
  What the kernel's input blocks hold.

  Before the grid runs, each argument [256, 64, 64, 64] is flattened to [256, 262144]; the two flattened
  arrays are what the windows read (`flat0`, `flat1`). At grid step t each window's block is columns
  8192·t … 8192·t + 8191 of all 256 rows: entry (p, k) of the block is entry (p, 8192·t + k) of the
  flattened array (`lhsBlock_apply`, `rhsBlock_apply`). For any float values.
-/
import proofs.«152323_j29497835389667_1_alg».proof.Proof.Gen.KernelIdeal.Frame
import Idealize.ShloMosaic.Lib.Pipeline.Value
import Idealize.ShloMosaic.Lib.StableHlo.Run
import Idealize.ShloMosaic.Lib.ValueIdx
import Idealize.ShloMosaic.Lib.Tactic

noncomputable section

open Idealize.ShloMosaic Idealize.ShloMosaic.TcCoe Idealize.SL.Sem Idealize.ShloMosaic.ValueIdx

namespace Cert.KernelIdeal.Blocks

open Cert.KernelIdeal Cert.KernelIdeal.Gen

variable {F : FTy → Type} [FloatOps F]
variable (m : (ℓ : Loc nD τ sig) → Buf (Elt F) ℓ)

/-- At step `t` the left window's block index is (0, t): all rows, the t-th group of 8192 columns. -/
theorem lhsIndex : ∀ t : Fin cfg0.N, win0_0.index t (0 : Fin 2) = 0 ∧ win0_0.index t (1 : Fin 2) = t.val :=
  (by decide +kernel : ∀ t : Fin grid0.N, win0_0.index t (0 : Fin 2) = 0 ∧ win0_0.index t (1 : Fin 2) = t.val)

/-- The right window's likewise. -/
theorem rhsIndex : ∀ t : Fin cfg0.N, win0_1.index t (0 : Fin 2) = 0 ∧ win0_1.index t (1 : Fin 2) = t.val :=
  (by decide +kernel : ∀ t : Fin grid0.N, win0_1.index t (0 : Fin 2) = 0 ∧ win0_1.index t (1 : Fin 2) = t.val)

/-- Entry (p, k) of the left block at step `t` is entry (p, 8192·t + k) of the flattened first argument. -/
theorem lhsBlock_apply (c : Dev nD) (t : Fin cfg0.N) (p : Fin 256) (k : Fin 8192) (d : Fin 262144)
    (hd : d.val = 8192 * t.val + k.val) :
    (iblk m c 0 t : Vec F S256x8192 .f32) (ix2 p k) = (V m c main_v0 : S256x262144.Idx → Elt F .f32) (ix2 p d) := by
  unfold iblk
  rw [View.read_apply]
  show (V m c main_v0 : S256x262144.Idx → Elt F .f32) _ = V m c main_v0 _
  congr 1
  funext a
  apply Fin.ext
  match a with
  | ⟨0, _⟩ => show win0_0.index t 0 * 256 + 1 * p.val = p.val; rw [(lhsIndex t).1]; omega
  | ⟨1, _⟩ => show win0_0.index t 1 * 8192 + 1 * k.val = d.val; rw [(lhsIndex t).2, hd]; omega

/-- Entry (q, k) of the right block at step `t` is entry (q, 8192·t + k) of the flattened second argument. -/
theorem rhsBlock_apply (c : Dev nD) (t : Fin cfg0.N) (q : Fin 256) (k : Fin 8192) (d : Fin 262144)
    (hd : d.val = 8192 * t.val + k.val) :
    (iblk m c 1 t : Vec F S256x8192 .f32) (ix2 q k) = (V m c main_v1 : S256x262144.Idx → Elt F .f32) (ix2 q d) := by
  unfold iblk
  rw [View.read_apply]
  show (V m c main_v1 : S256x262144.Idx → Elt F .f32) _ = V m c main_v1 _
  congr 1
  funext a
  apply Fin.ext
  match a with
  | ⟨0, _⟩ => show win0_1.index t 0 * 256 + 1 * q.val = q.val; rw [(rhsIndex t).1]; omega
  | ⟨1, _⟩ => show win0_1.index t 1 * 8192 + 1 * k.val = d.val; rw [(rhsIndex t).2, hd]; omega

/-- The array the left window reads is the first argument flattened to [256, 262144]. -/
theorem flat0 (c : Dev nD) : (V m c main_v0 : S256x262144.Idx → Elt F .f32)
    = shapeCast S256x262144 (m ((c : Thread nD τ).loc main_arg0)) shapeCasts_S256x64x64x64_S256x262144 := by
  show StableHlo.after hostOps0 (fun b => m (c, b)) (Proc.devRef .tc main_v0) = _
  after_results
  rfl

/-- The array the right window reads is the second argument flattened to [256, 262144]. -/
theorem flat1 (c : Dev nD) : (V m c main_v1 : S256x262144.Idx → Elt F .f32)
    = shapeCast S256x262144 (m ((c : Thread nD τ).loc main_arg1)) shapeCasts_S256x64x64x64_S256x262144 := by
  show StableHlo.after hostOps0 (fun b => m (c, b)) (Proc.devRef .tc main_v1) = _
  after_results
  rfl

end Cert.KernelIdeal.Blocks

end
-- ==== Proof.Spec.lean ====
/-
  The mathematics the two programs share, with no program in sight.

  Both compute, for every pair (n, m) of rows, the mean over the 262144 features of a[n, d] · b[m, d],
  pass it through the logistic function, and hand the 256×256 matrix of probabilities to the same
  binary-cross-entropy tail. They differ in two places only:

    * the kernel adds the 262144 products up as 32 consecutive blocks of 8192, the reference in one sum
      (`sum_blocks`: a sum over d is the sum over the block s and the place k inside it, d = 8192·s + k —
      addition of extended reals is commutative and associative, so no finiteness is needed);
    * the kernel multiplies the sum by 2⁻¹⁸ and applies the logistic function, the reference divides it by
      2¹⁸ = 262144 and writes 1 / (1 + exp(−·)) out (`squash_eq`: dividing an extended real by a nonzero
      real is multiplying by its reciprocal, and the logistic function is that quotient by definition).
-/
import Idealize.ShloMosaic.PureOps.Ideal
import Idealize.ShloMosaic.Lib.ValueIdx

noncomputable section

namespace Cert.Spec

open Idealize.ShloMosaic

/-! ## The three float literals as real numbers -/

/-- The word of `1.0` is the number 1. -/
theorem word_one : Ideal.ofBits .f32 0x3F800000#32 = 1 := by
  simp [Ideal.ofBits, Ideal.ieee, -EReal.coe_mul]; norm_num

/-- The reference's divisor `262144.0` is 2¹⁸. -/
theorem word_count : Ideal.ofBits .f32 0x48800000#32 = ((262144 : ℝ) : EReal) := by
  simp [Ideal.ofBits, Ideal.ieee, -EReal.coe_mul]; norm_num

/-- The kernel's factor `3.81469727E-6` is exactly 2⁻¹⁸ = 1/262144. -/
theorem word_recip : Ideal.ofBits .f32 0x36800000#32 = ((1 / 262144 : ℝ) : EReal) := by
  simp [Ideal.ofBits, Ideal.ieee, -EReal.coe_mul]; norm_num

/-- Scaling by 2⁻¹⁸ then the logistic function, against division by 2¹⁸ then 1 / (1 + exp(−·)):
    one function of any extended real `x`. -/
theorem squash_eq (x : EReal) :
    Ideal.logistic (x * Ideal.ofBits .f32 0x36800000#32)
      = Ideal.div (Ideal.ofBits .f32 0x3F800000#32)
          (Ideal.ofBits .f32 0x3F800000#32 + Ideal.exp (-(Ideal.div x (Ideal.ofBits .f32 0x48800000#32)))) := by
  rw [word_one, word_count, word_recip, Ideal.div_coe (by norm_num : (262144 : ℝ) ≠ 0)]
  rfl

/-! ## A sum over the feature axis, block by block -/

/-- Feature `k` of block `s`. -/
def feat (s : Fin 32) (k : Fin 8192) : Fin 262144 :=
  ⟨8192 * s.val + k.val, by have := s.isLt; have := k.isLt; omega⟩

/-- The sum over all 262144 features is the sum, over the 32 blocks, of the sums over each block's
    8192 features. -/
theorem sum_blocks (g : Fin 262144 → EReal) :
    ∑ d : Fin 262144, g d = ∑ s : Fin 32, ∑ k : Fin 8192, g (feat s k) := by
  rw [← Fintype.sum_prod_type' (f := fun (s : Fin 32) (k : Fin 8192) => g (feat s k))]
  symm
  refine Fintype.sum_equiv ((finProdFinEquiv (m := 32) (n := 8192)).trans (finCongr (by norm_num))) _ _ (fun x => ?_)
  congr 1
  apply Fin.ext
  simp [feat, finProdFinEquiv]
  omega

end Cert.Spec

end
-- ==== Proof.Total.lean ====
/-
  The accumulator is the whole dot product.

  Write a = the first argument flattened to [256, 262144] and b = the second. Group s (s < 32) of the
  features contributes  Σ_{k < 8192} a[p, 8192·s + k] · b[q, 8192·s + k]  to entry (p, q). After step n the
  accumulator's entry (p, q) is the sum of groups 0, …, n (`acc_apply`, by induction on the step: the first
  step starts from zero, each later step adds its group), so after the last step it is the sum over all
  262144 features (`total`: the 32 groups partition the feature axis). Over the extended reals; only
  commutativity and associativity of addition are used.
-/
import proofs.«152323_j29497835389667_1_alg».proof.Proof.Accum
import proofs.«152323_j29497835389667_1_alg».proof.Proof.Payload
import proofs.«152323_j29497835389667_1_alg».proof.Proof.Blocks
import proofs.«152323_j29497835389667_1_alg».proof.Proof.Spec

noncomputable section

open Idealize.ShloMosaic Idealize.ShloMosaic.TcCoe Idealize.SL.Sem Idealize.ShloMosaic.ValueIdx

namespace Cert.KernelIdeal.Total

open Cert.KernelIdeal Cert.KernelIdeal.Gen

variable (m : (ℓ : Loc nD τ sig) → Buf (Elt Ideal) ℓ)

/-- The two flattened arrays the windows read, as extended reals. -/
abbrev lhs (c : Dev nD) : S256x262144.Idx → EReal := V m c main_v0
abbrev rhs (c : Dev nD) : S256x262144.Idx → EReal := V m c main_v1

/-- The two blocks the windows hold at step `t`, as extended reals. -/
abbrev lblk (c : Dev nD) (t : Fin cfg0.N) : S256x8192.Idx → EReal := iblk m c 0 t
abbrev rblk (c : Dev nD) (t : Fin cfg0.N) : S256x8192.Idx → EReal := iblk m c 1 t

/-- Group `s` of the features, for rows `p` and `q` (zero past the 32 groups). -/
def group (c : Dev nD) (p q : Fin 256) (s : ℕ) : EReal :=
  if hs : s < 32 then ∑ k : Fin 8192, lhs m c (ix2 p (Spec.feat ⟨s, hs⟩ k)) * rhs m c (ix2 q (Spec.feat ⟨s, hs⟩ k)) else 0

/-- The step's two blocks, contracted, are that step's group. -/
theorem blocks_eq_group (c : Dev nD) (p q : Fin 256) (n : ℕ) (h : n < cfg0.N) :
    ∑ k : Fin 8192, lblk m c ⟨n, h⟩ (ix2 p k) * rblk m c ⟨n, h⟩ (ix2 q k) = group m c p q n := by
  have hn : n < 32 := lt_of_lt_of_eq h (show cfg0.N = 32 from N_0)
  unfold group
  rw [dif_pos hn]
  refine Finset.sum_congr rfl fun k _ => ?_
  exact congrArg₂ (· * ·) (Blocks.lhsBlock_apply m c ⟨n, h⟩ p k (Spec.feat ⟨n, hn⟩ k) rfl)
    (Blocks.rhsBlock_apply m c ⟨n, h⟩ q k (Spec.feat ⟨n, hn⟩ k) rfl)

/-- After step `n`, entry (p, q) of the accumulator is the sum of groups 0, …, n. -/
theorem acc_apply (c : Dev nD) (p q : Fin 256) : ∀ (n : ℕ) (h : n < cfg0.N),
    Accum.acc m c n h (ix2 p q) = ∑ s ∈ Finset.range (n + 1), group m c p q s
  | 0, h => by
    show k0_pay2 (F := Ideal) (iblk m c 0 ⟨0, h⟩) (iblk m c 1 ⟨0, h⟩) (k0_pay1 (F := Ideal)) (ix2 p q) = _
    refine (Payload.step_apply (lblk m c ⟨0, h⟩) (rblk m c ⟨0, h⟩) (k0_pay1 (F := Ideal)) p q).trans ?_
    rw [Payload.clear_apply, zero_add, Finset.sum_range_one]
    exact blocks_eq_group m c p q 0 h
  | n + 1, h => by
    show k0_pay2 (F := Ideal) (iblk m c 0 ⟨n + 1, h⟩) (iblk m c 1 ⟨n + 1, h⟩) (Accum.acc m c n (Nat.lt_of_succ_lt h)) (ix2 p q) = _
    refine (Payload.step_apply (lblk m c ⟨n + 1, h⟩) (rblk m c ⟨n + 1, h⟩) (Accum.acc m c n (Nat.lt_of_succ_lt h)) p q).trans ?_
    rw [acc_apply c p q n (Nat.lt_of_succ_lt h), Finset.sum_range_succ _ (n + 1)]
    exact congrArg (_ + ·) (blocks_eq_group m c p q (n + 1) h)

/-- After the last step, entry (p, q) of the accumulator is the dot product of row `p` of the first
    flattened argument with row `q` of the second, over all 262144 features. -/
theorem total (c : Dev nD) (p q : Fin 256) (h : 31 < cfg0.N) :
    Accum.acc m c 31 h (ix2 p q) = ∑ d : Fin 262144, lhs m c (ix2 p d) * rhs m c (ix2 q d) := by
  refine (acc_apply m c p q 31 h).trans ?_
  show ∑ s ∈ Finset.range 32, group m c p q s = _
  rw [Spec.sum_blocks (fun d => lhs m c (ix2 p d) * rhs m c (ix2 q d)), ← Fin.sum_univ_eq_sum_range (fun s => group m c p q s) 32]
  refine Finset.sum_congr rfl fun s _ => ?_
  unfold group
  rw [dif_pos s.isLt]

end Cert.KernelIdeal.Total

end
-- ==== Proof.RefValue.lean ====
/-
  The reference, read.

  From its two arguments the reference computes the 256×256 matrix
      P[p, q] = 1 / (1 + exp(−( (Σ_{d < 262144} a[p, d] · b[q, d]) / 262144 )))
  where a, b are the arguments flattened to [256, 262144], and returns the loss of P.
  `result_eq`: the run's result term is the loss of `probs` (the same operations, grouped);
  `probs_apply`: `probs` at entry (p, q), the dot product written as a plain sum over the features.
-/
import proofs.«152323_j29497835389667_1_alg».proof.Proof.Gen.ReferenceIdeal.Read
import proofs.«152323_j29497835389667_1_alg».proof.Proof.Tail
import Idealize.ShloMosaic.Lib.ValueIdx

noncomputable section

open Idealize.ShloMosaic Idealize.ShloMosaic.TcCoe Idealize.SL.Sem Idealize.ShloMosaic.ValueIdx

namespace Cert.ReferenceIdeal.RefValue

open Cert.ReferenceIdeal Cert.ReferenceIdeal.Gen

/-- The reference's matrix of probabilities, of its two arguments. -/
def probs (x0 x1 : (⟨S256x64x64x64, .f32⟩ : BufTy).Contents (Elt Ideal)) : FVec Ideal S256x256 .f32 :=
  Host.divf (F := Ideal) (broadcastInDim S256x256 ![] bcast_S_S256x256 (constant (F := Ideal) S_ .f32 0x3F800000#32))
    (addf (broadcastInDim S256x256 ![] bcast_S_S256x256 (constant (F := Ideal) S_ .f32 0x3F800000#32))
      (Host.exp (Host.negf (Host.divf (Read.val_main_v2 (F := Ideal) x0 x1)
        (broadcastInDim S256x256 ![] bcast_S_S256x256 (constant (F := Ideal) S_ .f32 0x48800000#32))))))

/-- The reference's run, read: the result at the loss of `probs` of the arguments, the arguments unchanged. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v28)
        = Tail.loss bcast_S_S256x256 reducesTo_S256x256_S_d0_1 h_S_
            (probs (m ((c.tc : Thread nD τ).loc main_arg0)) (m ((c.tc : Thread nD τ).loc main_arg1)))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c => ⟨(h c).1.trans rfl, (h c).2⟩) (Cert.ReferenceIdeal.Value.run (F := Ideal) m ρ)

/-- Row `p` of the first flattened argument, feature `k`: where the dot product reads its left factor, -/
theorem left_index (p q : Fin 256) (k : Fin 262144) : Read.lidx_main_v2 (ix2 p q) k = ix2 p k :=
  funext fun a => Fin.ext (by match a with | ⟨0, _⟩ => rfl | ⟨1, _⟩ => rfl)

/-- and row `q` of the second, feature `k`, its right factor. -/
theorem right_index (p q : Fin 256) (k : Fin 262144) : Read.ridx_main_v2 (ix2 p q) k = ix2 q k :=
  funext fun a => Fin.ext (by match a with | ⟨0, _⟩ => rfl | ⟨1, _⟩ => rfl)

/-- The probabilities at entry (p, q). -/
theorem probs_apply (x0 x1 : (⟨S256x64x64x64, .f32⟩ : BufTy).Contents (Elt Ideal)) (p q : Fin 256) :
    probs x0 x1 (ix2 p q)
      = Ideal.div (Ideal.ofBits .f32 0x3F800000#32) (Ideal.ofBits .f32 0x3F800000#32 + Ideal.exp (-(Ideal.div
          (∑ d : Fin 262144, Read.val_main_v0 (F := Ideal) x0 (ix2 p d) * Read.val_main_v1 (F := Ideal) x1 (ix2 q d))
          (Ideal.ofBits .f32 0x48800000#32)))) := by
  have hd := Read.val_main_v2_apply x0 x1 (ix2 p q)
  simp only [left_index, right_index] at hd
  unfold probs
  show Ideal.div _ (_ + Ideal.exp (-(Ideal.div (Read.val_main_v2 (F := Ideal) x0 x1 (ix2 p q)) _))) = _
  rw [hd]
  rfl

end Cert.ReferenceIdeal.RefValue

end
-- ==== Proof.Bridge.lean ====
/-
  The two matrices of probabilities are one matrix.

  At entry (p, q) the kernel holds  logistic( (Σ_{d} a[p, d]·b[q, d]) · 2⁻¹⁸ )  — its accumulator after the
  last step is the whole dot product — and the reference  1 / (1 + exp(−( (Σ_{d} a[p, d]·b[q, d]) / 2¹⁸ )))
  of the same flattened arguments a, b. These are equal for every extended real value of the sum.
-/
import proofs.«152323_j29497835389667_1_alg».proof.Proof.Result
import proofs.«152323_j29497835389667_1_alg».proof.Proof.Total
import proofs.«152323_j29497835389667_1_alg».proof.Proof.RefValue
import proofs.«152323_j29497835389667_1_alg».proof.Proof.Spec

noncomputable section

open Idealize.ShloMosaic Idealize.ShloMosaic.TcCoe Idealize.SL.Sem Idealize.ShloMosaic.ValueIdx

namespace Cert.Bridge

/-- The reference's probabilities of the kernel program's arguments are the kernel's probabilities. -/
theorem probs_eq (m : (ℓ : Loc Cert.KernelIdeal.nD Cert.KernelIdeal.τ Cert.KernelIdeal.sig) → Buf (Elt Ideal) ℓ)
    (c : Dev Cert.KernelIdeal.nD) :
    Cert.ReferenceIdeal.RefValue.probs
        (m ((c.tc : Thread Cert.KernelIdeal.nD Cert.KernelIdeal.τ).loc Cert.KernelIdeal.main_arg0))
        (m ((c.tc : Thread Cert.KernelIdeal.nD Cert.KernelIdeal.τ).loc Cert.KernelIdeal.main_arg1))
      = Cert.KernelIdeal.Result.probs m c := by
  funext j
  obtain ⟨p, q, rfl⟩ : ∃ (p q : Fin 256), j = ix2 p q := ⟨j 0, j 1, eq_ix2 j⟩
  rw [Cert.ReferenceIdeal.RefValue.probs_apply]
  refine Eq.trans ?_ (Cert.KernelIdeal.Payload.squash_apply _ (ix2 p q)).symm
  rw [Cert.KernelIdeal.Total.total m c p q, Cert.Spec.squash_eq]
  unfold Cert.KernelIdeal.Total.lhs Cert.KernelIdeal.Total.rhs
  rw [Cert.KernelIdeal.Blocks.flat0 m c, Cert.KernelIdeal.Blocks.flat1 m c]
  rfl

end Cert.Bridge

end
-- ==== Proof.lean ====
/-
  The kernel and its reference compute the same loss.

  Both take two arrays of shape [256, 64, 64, 64], flatten each to a = [256, 262144] and b = [256, 262144],
  form the 256×256 matrix of probabilities  P[p, q] = logistic( mean_d a[p, d]·b[q, d] ),  and return the binary
  cross-entropy of P against the identity labels.

  The kernel walks the 262144 features in 32 steps of 8192, adding each step's block product into an
  accumulator; after the last step it scales the accumulator by 2⁻¹⁸ and applies the logistic function. The
  reference takes the whole dot product, divides it by 262144 and writes the logistic function out as
  1 / (1 + exp(−·)). Over the extended reals the 32 partial sums are the whole sum (addition is commutative and
  associative), dividing by 2¹⁸ is multiplying by 2⁻¹⁸, and the logistic function is that quotient; the loss is
  the same function of P on both sides. No finiteness of the inputs is used.

  The three frames are the generated ones (the reference's is its generated run with the result dropped);
  the idealized kernel is the kernel's own text, so there is nothing to preserve.
-/
import proofs.«152323_j29497835389667_1_alg».proof.Defs
import proofs.«152323_j29497835389667_1_alg».proof.Proof.Gen.Kernel
import proofs.«152323_j29497835389667_1_alg».proof.Proof.Gen.Kernel.Skeleton
import proofs.«152323_j29497835389667_1_alg».proof.Proof.Gen.Kernel.Launch
import proofs.«152323_j29497835389667_1_alg».proof.Proof.Gen.Kernel.Points
import proofs.«152323_j29497835389667_1_alg».proof.Proof.Gen.Kernel.Frame
import proofs.«152323_j29497835389667_1_alg».proof.Proof.Gen.KernelIdeal
import proofs.«152323_j29497835389667_1_alg».proof.Proof.Gen.KernelIdeal.Skeleton
import proofs.«152323_j29497835389667_1_alg».proof.Proof.Gen.KernelIdeal.Launch
import proofs.«152323_j29497835389667_1_alg».proof.Proof.Gen.KernelIdeal.Points
import proofs.«152323_j29497835389667_1_alg».proof.Proof.Gen.KernelIdeal.Frame
import proofs.«152323_j29497835389667_1_alg».proof.Proof.Gen.ReferenceIdeal
import proofs.«152323_j29497835389667_1_alg».proof.Proof.Gen.ReferenceIdeal.Run
import proofs.«152323_j29497835389667_1_alg».proof.Proof.Gen.ReferenceIdeal.Read
import proofs.«152323_j29497835389667_1_alg».proof.Proof.Gen.Pre_finite_inputs
import proofs.«152323_j29497835389667_1_alg».proof.Proof.Bridge
import Idealize.ShloMosaic.Adequacy
import Idealize.ShloMosaic.Init

noncomputable section

namespace Cert.Proof

open Idealize.ShloMosaic Idealize.SL.Sem

/-- The word-level kernel runs and leaves its arguments as they were. -/
theorem frame_kernel : Cert.frame_Kernel := fun m ρ _ => Cert.Kernel.Gen.frame m ρ

/-- So does the kernel read over the extended reals. -/
theorem frame_kernelIdeal : Cert.frame_KernelIdeal := fun m ρ _ => Cert.KernelIdeal.Gen.frame m ρ

/-- The reference runs and leaves its arguments as they were: its run, the result forgotten. -/
theorem frame_referenceIdeal : Cert.frame_ReferenceIdeal := fun m ρ _ =>
  (θ_run Cert.ReferenceIdeal.defs _ _).mono (fun _ h c => (h c).2) (Cert.ReferenceIdeal.Value.run (F := Ideal) m ρ)

/-- From arguments that agree, both programs end at the loss of the same matrix of probabilities. -/
theorem algebraic : Cert.algebraic_KernelIdeal_ReferenceIdeal := by
  intro m ρ m' ρ' _ hagree
  refine ⟨_, Cert.KernelIdeal.Result.run (F := Ideal) m ρ, ?_⟩
  refine (θ_run Cert.ReferenceIdeal.defs _ _).mono (fun _ h c => ⟨(h c).1.trans ?_, (h c).2⟩)
    (Cert.ReferenceIdeal.RefValue.run m' ρ')
  rw [(hagree c).1, (hagree c).2]
  exact congrArg (Cert.Tail.loss _ _ _) (Cert.Bridge.probs_eq m c)

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
